-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v151) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  main_v13
-- ==== Kernel.lean ====
abbrev S16777216 : Shape := ⟨1, ![16777216]⟩
abbrev S131072x128 : Shape := ⟨2, ![131072, 128]⟩
abbrev S2048x128 : Shape := ⟨2, ![2048, 128]⟩

abbrev nBuf : Space → Nat
  | .hbm => 12
  | .vmem => 12
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S131072x128, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S16777216, .f32⟩
  | .hbm, ⟨10, _⟩ => ⟨S16777216, .f32⟩
  | .hbm, ⟨11, _⟩ => ⟨S16777216, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16777216_S131072x128 : S16777216.ShapeCasts S131072x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S131072x128_S16777216 : S131072x128.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S131072x128.size a
  hwx0_4 : ∀ i : grid0.Coords, EltTy.bits .f32 = 32 ∨ (Rect.block (s := S131072x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .f32 = 32 ∨ (Rect.block (s := S131072x128) S2048x128.size (cc0_transform_5 i) (hinb0_5 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 208
  | .vmem => 0
  | .smem => 0
  | _ => 0

abbrev hbmTy0_0 (i : Nat) : BufTy := match i % 128 with
  | 0 => ⟨S16777216, .f32⟩
  | 1 => ⟨S16777216, .f32⟩
  | 2 => ⟨S16777216, .f32⟩
  | 3 => ⟨S_, .f32⟩
  | 4 => ⟨S16777216, .f32⟩
  | 5 => ⟨S16777216, .i1⟩
  | 6 => ⟨S16777216, .f32⟩
  | 7 => ⟨S_, .f32⟩
  | 8 => ⟨S16777216, .f32⟩
  | 9 => ⟨S16777216, .f32⟩
  | 10 => ⟨S16777216, .f32⟩
  | 11 => ⟨S16777216, .f32⟩
  | 12 => ⟨S16777216, .f32⟩
  | 13 => ⟨S_, .f32⟩
  | 14 => ⟨S16777216, .f32⟩
  | 15 => ⟨S16777216, .f32⟩
  | 16 => ⟨S_, .f32⟩
  | 17 => ⟨S16777216, .f32⟩
  | 18 => ⟨S16777216, .f32⟩
  | 19 => ⟨S_, .f32⟩
  | 20 => ⟨S16777216, .f32⟩
  | 21 => ⟨S16777216, .f32⟩
  | 22 => ⟨S16777216, .f32⟩
  | 23 => ⟨S_, .f32⟩
  | 24 => ⟨S16777216, .f32⟩
  | 25 => ⟨S16777216, .i1⟩
  | 26 => ⟨S16777216, .f32⟩
  | 27 => ⟨S_, .f32⟩
  | 28 => ⟨S16777216, .f32⟩
  | 29 => ⟨S16777216, .f32⟩
  | 30 => ⟨S16777216, .f32⟩
  | 31 => ⟨S16777216, .f32⟩
  | 32 => ⟨S16777216, .f32⟩
  | 33 => ⟨S_, .f32⟩
  | 34 => ⟨S16777216, .f32⟩
  | 35 => ⟨S16777216, .f32⟩
  | 36 => ⟨S_, .f32⟩
  | 37 => ⟨S16777216, .f32⟩
  | 38 => ⟨S16777216, .f32⟩
  | 39 => ⟨S_, .f32⟩
  | 40 => ⟨S16777216, .f32⟩
  | 41 => ⟨S16777216, .f32⟩
  | 42 => ⟨S16777216, .f32⟩
  | 43 => ⟨S16777216, .f32⟩
  | 44 => ⟨S16777216, .f32⟩
  | 45 => ⟨S16777216, .f32⟩
  | 46 => ⟨S16777216, .f32⟩
  | 47 => ⟨S16777216, .f32⟩
  | 48 => ⟨S16777216, .f32⟩
  | 49 => ⟨S_, .f32⟩
  | 50 => ⟨S16777216, .f32⟩
  | 51 => ⟨S16777216, .f32⟩
  | 52 => ⟨S16777216, .f32⟩
  | 53 => ⟨S16777216, .f32⟩
  | 54 => ⟨S16777216, .f32⟩
  | 55 => ⟨S_, .f32⟩
  | 56 => ⟨S16777216, .f32⟩
  | 57 => ⟨S16777216, .f32⟩
  | 58 => ⟨S_, .f32⟩
  | 59 => ⟨S16777216, .f32⟩
  | 60 => ⟨S16777216, .f32⟩
  | 61 => ⟨S_, .f32⟩
  | 62 => ⟨S16777216, .f32⟩
  | 63 => ⟨S16777216, .i1⟩
  | 64 => ⟨S_, .f32⟩
  | 65 => ⟨S16777216, .f32⟩
  | 66 => ⟨S16777216, .f32⟩
  | 67 => ⟨S16777216, .f32⟩
  | 68 => ⟨S_, .f32⟩
  | 69 => ⟨S16777216, .f32⟩
  | 70 => ⟨S16777216, .f32⟩
  | 71 => ⟨S16777216, .f32⟩
  | 72 => ⟨S16777216, .f32⟩
  | 73 => ⟨S_, .f32⟩
  | 74 => ⟨S16777216, .f32⟩
  | 75 => ⟨S16777216, .i1⟩
  | 76 => ⟨S16777216, .f32⟩
  | 77 => ⟨S_, .f32⟩
  | 78 => ⟨S16777216, .f32⟩
  | 79 => ⟨S16777216, .f32⟩
  | 80 => ⟨S16777216, .f32⟩
  | 81 => ⟨S16777216, .f32⟩
  | 82 => ⟨S16777216, .f32⟩
  | 83 => ⟨S_, .f32⟩
  | 84 => ⟨S16777216, .f32⟩
  | 85 => ⟨S16777216, .f32⟩
  | 86 => ⟨S_, .f32⟩
  | 87 => ⟨S16777216, .f32⟩
  | 88 => ⟨S16777216, .f32⟩
  | 89 => ⟨S_, .f32⟩
  | 90 => ⟨S16777216, .f32⟩
  | 91 => ⟨S16777216, .f32⟩
  | 92 => ⟨S16777216, .f32⟩
  | 93 => ⟨S16777216, .f32⟩
  | 94 => ⟨S16777216, .f32⟩
  | 95 => ⟨S_, .f32⟩
  | 96 => ⟨S16777216, .f32⟩
  | 97 => ⟨S16777216, .f32⟩
  | 98 => ⟨S16777216, .f32⟩
  | 99 => ⟨S16777216, .f32⟩
  | 100 => ⟨S16777216, .f32⟩
  | 101 => ⟨S_, .f32⟩
  | 102 => ⟨S16777216, .f32⟩
  | 103 => ⟨S16777216, .f32⟩
  | 104 => ⟨S_, .f32⟩
  | 105 => ⟨S16777216, .f32⟩
  | 106 => ⟨S16777216, .f32⟩
  | 107 => ⟨S_, .f32⟩
  | 108 => ⟨S16777216, .f32⟩
  | 109 => ⟨S16777216, .i1⟩
  | 110 => ⟨S_, .f32⟩
  | 111 => ⟨S16777216, .f32⟩
  | 112 => ⟨S16777216, .f32⟩
  | 113 => ⟨S16777216, .f32⟩
  | 114 => ⟨S_, .f32⟩
  | 115 => ⟨S16777216, .f32⟩
  | 116 => ⟨S16777216, .f32⟩
  | 117 => ⟨S16777216, .f32⟩
  | 118 => ⟨S16777216, .f32⟩
  | 119 => ⟨S_, .f32⟩
  | 120 => ⟨S16777216, .f32⟩
  | 121 => ⟨S16777216, .i1⟩
  | 122 => ⟨S16777216, .f32⟩
  | 123 => ⟨S_, .f32⟩
  | 124 => ⟨S16777216, .f32⟩
  | 125 => ⟨S16777216, .f32⟩
  | 126 => ⟨S16777216, .f32⟩
  | 127 => ⟨S16777216, .f32⟩
  | _ => ⟨S16777216, .f32⟩

abbrev hbmTy0_1 (i : Nat) : BufTy := match i % 128 with
  | 0 => ⟨S16777216, .f32⟩
  | 1 => ⟨S_, .f32⟩
  | 2 => ⟨S16777216, .f32⟩
  | 3 => ⟨S16777216, .f32⟩
  | 4 => ⟨S_, .f32⟩
  | 5 => ⟨S16777216, .f32⟩
  | 6 => ⟨S16777216, .f32⟩
  | 7 => ⟨S_, .f32⟩
  | 8 => ⟨S16777216, .f32⟩
  | 9 => ⟨S16777216, .f32⟩
  | 10 => ⟨S16777216, .f32⟩
  | 11 => ⟨S16777216, .f32⟩
  | 12 => ⟨S16777216, .f32⟩
  | 13 => ⟨S16777216, .i1⟩
  | 14 => ⟨S_, .f32⟩
  | 15 => ⟨S_, .f32⟩
  | 16 => ⟨S16777216, .f32⟩
  | 17 => ⟨S16777216, .f32⟩
  | 18 => ⟨S16777216, .f32⟩
  | 19 => ⟨S16777216, .f32⟩
  | 20 => ⟨S_, .f32⟩
  | 21 => ⟨S16777216, .f32⟩
  | 22 => ⟨S16777216, .i1⟩
  | 23 => ⟨S_, .f32⟩
  | 24 => ⟨S16777216, .f32⟩
  | 25 => ⟨S16777216, .i1⟩
  | 26 => ⟨S_, .f32⟩
  | 27 => ⟨S16777216, .f32⟩
  | 28 => ⟨S16777216, .i1⟩
  | 29 => ⟨S16777216, .f32⟩
  | 30 => ⟨S16777216, .f32⟩
  | 31 => ⟨S16777216, .f32⟩
  | 32 => ⟨S_, .f32⟩
  | 33 => ⟨S_, .f32⟩
  | 34 => ⟨S16777216, .f32⟩
  | 35 => ⟨S16777216, .f32⟩
  | 36 => ⟨S16777216, .f32⟩
  | 37 => ⟨S16777216, .f32⟩
  | 38 => ⟨S_, .f32⟩
  | 39 => ⟨S16777216, .f32⟩
  | 40 => ⟨S16777216, .f32⟩
  | 41 => ⟨S16777216, .f32⟩
  | 42 => ⟨S16777216, .f32⟩
  | 43 => ⟨S16777216, .f32⟩
  | 44 => ⟨S_, .f32⟩
  | 45 => ⟨S_, .f32⟩
  | 46 => ⟨S16777216, .f32⟩
  | 47 => ⟨S16777216, .f32⟩
  | 48 => ⟨S16777216, .f32⟩
  | 49 => ⟨S16777216, .f32⟩
  | 50 => ⟨S_, .f32⟩
  | 51 => ⟨S_, .f32⟩
  | 52 => ⟨S16777216, .f32⟩
  | 53 => ⟨S16777216, .f32⟩
  | 54 => ⟨S16777216, .f32⟩
  | 55 => ⟨S16777216, .f32⟩
  | 56 => ⟨S_, .f32⟩
  | 57 => ⟨S16777216, .f32⟩
  | 58 => ⟨S16777216, .i1⟩
  | 59 => ⟨S16777216, .f32⟩
  | 60 => ⟨S_, .f32⟩
  | 61 => ⟨S16777216, .f32⟩
  | 62 => ⟨S16777216, .f32⟩
  | 63 => ⟨S16777216, .f32⟩
  | 64 => ⟨S16777216, .f32⟩
  | 65 => ⟨S16777216, .f32⟩
  | 66 => ⟨S_, .f32⟩
  | 67 => ⟨S16777216, .f32⟩
  | 68 => ⟨S16777216, .f32⟩
  | 69 => ⟨S_, .f32⟩
  | 70 => ⟨S16777216, .f32⟩
  | 71 => ⟨S16777216, .f32⟩
  | 72 => ⟨S_, .f32⟩
  | 73 => ⟨S16777216, .f32⟩
  | 74 => ⟨S16777216, .f32⟩
  | 75 => ⟨S16777216, .f32⟩
  | 76 => ⟨S16777216, .f32⟩
  | 77 => ⟨S16777216, .f32⟩
  | 78 => ⟨S16777216, .f32⟩
  | 79 => ⟨S16777216, .f32⟩
  | _ => ⟨S16777216, .f32⟩

abbrev hbmTy (i : Nat) : BufTy := match i / 128 with
  | 0 => hbmTy0_0 i
  | 1 => hbmTy0_1 i
  | _ => ⟨S16777216, .f32⟩

abbrev bufTy : (tb : Table) → Fin (tcTables nBuf tb) → BufTy
  | .hbm, ⟨i, _⟩ => hbmTy i
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_cst_13 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_14 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_15 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_16 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_17 : Ref sig .tc := ⟨.hbm, 83, rfl⟩
abbrev main_v62 : Ref sig .tc := ⟨.hbm, 84, rfl⟩
abbrev main_v63 : Ref sig .tc := ⟨.hbm, 85, rfl⟩
abbrev main_cst_18 : Ref sig .tc := ⟨.hbm, 86, rfl⟩
abbrev main_v64 : Ref sig .tc := ⟨.hbm, 87, rfl⟩
abbrev main_v65 : Ref sig .tc := ⟨.hbm, 88, rfl⟩
abbrev main_cst_19 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_20 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_21 : Ref sig .tc := ⟨.hbm, 101, rfl⟩
abbrev main_v76 : Ref sig .tc := ⟨.hbm, 102, rfl⟩
abbrev main_v77 : Ref sig .tc := ⟨.hbm, 103, rfl⟩
abbrev main_cst_22 : Ref sig .tc := ⟨.hbm, 104, rfl⟩
abbrev main_v78 : Ref sig .tc := ⟨.hbm, 105, rfl⟩
abbrev main_v79 : Ref sig .tc := ⟨.hbm, 106, rfl⟩
abbrev main_cst_23 : Ref sig .tc := ⟨.hbm, 107, rfl⟩
abbrev main_v80 : Ref sig .tc := ⟨.hbm, 108, rfl⟩
abbrev main_v81 : Ref sig .tc := ⟨.hbm, 109, rfl⟩
abbrev main_cst_24 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_25 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_26 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_27 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_28 : Ref sig .tc := ⟨.hbm, 129, rfl⟩
abbrev main_v97 : Ref sig .tc := ⟨.hbm, 130, rfl⟩
abbrev main_v98 : Ref sig .tc := ⟨.hbm, 131, rfl⟩
abbrev main_cst_29 : Ref sig .tc := ⟨.hbm, 132, rfl⟩
abbrev main_v99 : Ref sig .tc := ⟨.hbm, 133, rfl⟩
abbrev main_v100 : Ref sig .tc := ⟨.hbm, 134, rfl⟩
abbrev main_cst_30 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_31 : Ref sig .tc := ⟨.hbm, 142, rfl⟩
abbrev main_call6_v0 : Ref sig .tc := ⟨.hbm, 143, rfl⟩
abbrev main_call6_v1 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_32 : Ref sig .tc := ⟨.hbm, 148, rfl⟩
abbrev main_v110 : Ref sig .tc := ⟨.hbm, 149, rfl⟩
abbrev main_v111 : Ref sig .tc := ⟨.hbm, 150, rfl⟩
abbrev main_cst_33 : Ref sig .tc := ⟨.hbm, 151, rfl⟩
abbrev main_v112 : Ref sig .tc := ⟨.hbm, 152, rfl⟩
abbrev main_v113 : Ref sig .tc := ⟨.hbm, 153, rfl⟩
abbrev main_cst_34 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_35 : Ref sig .tc := ⟨.hbm, 160, rfl⟩
abbrev main_call10_v0 : Ref sig .tc := ⟨.hbm, 161, rfl⟩
abbrev main_call10_v1 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_36 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_37 : Ref sig .tc := ⟨.hbm, 172, rfl⟩
abbrev main_call14_v0 : Ref sig .tc := ⟨.hbm, 173, rfl⟩
abbrev main_call14_v1 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_38 : Ref sig .tc := ⟨.hbm, 178, rfl⟩
abbrev main_call17_v0 : Ref sig .tc := ⟨.hbm, 179, rfl⟩
abbrev main_call17_v1 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_39 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_40 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_41 : Ref sig .tc := ⟨.hbm, 194, rfl⟩
abbrev main_v141 : Ref sig .tc := ⟨.hbm, 195, rfl⟩
abbrev main_v142 : Ref sig .tc := ⟨.hbm, 196, rfl⟩
abbrev main_cst_42 : Ref sig .tc := ⟨.hbm, 197, rfl⟩
abbrev main_v143 : Ref sig .tc := ⟨.hbm, 198, rfl⟩
abbrev main_v144 : Ref sig .tc := ⟨.hbm, 199, rfl⟩
abbrev main_cst_43 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)

variable [Facts₀]

class Facts : Prop extends Facts₀ where

variable [Facts]
-- ==== Proof.SpuBounds.lean ====
/-
  The element-wise mathematics of the two programs, on the extended reals.

  Both programs apply, entry by entry, the same three functions to an entry `x` of the point array and the
  entries `l`, `u` of the two bound arrays at the same position:

    spu a   = a² − ½                      for 0 ≤ a,      s(a) − 1            otherwise,
    dspu a  = 2·a                         for 0 ≤ a,      −s(a)·(1 − s(a))    otherwise,

  where `s(a) = 1 / (1 + eᵃ)` is the logistic function at `−a`; from these the chord of `spu` over `[l, u]`
  (its slope `(spu u − spu l) / (u − l)` and intercept `spu l − slope·l`), the tangent of `spu` at a point `a`
  (slope `dspu a`, intercept `spu a − a·dspu a`) taken at the midpoint `(u + l)·½` or at the larger of the
  midpoint and `√½`, and a four-way choice between them by the signs of `l` and `u` and by `u` against `√½`.
  The results are `spu x`, `w_l·l + b_l` and `w_u·u + b_u`.

  Nothing here needs the entries to be finite: division, exponential, comparison and maximum are total on the
  extended reals and the two programs apply them in the same order to the same operands.  The only places
  where the two texts differ are the negation (one writes `0 − a`, the other `−a`) and the logistic function
  (one names it, the other spells `1 / (1 + e^(−(−a)))`); `0 − a = −a` and `−(−a) = a` hold for every
  extended real, and the pattern `0x3F800000` is the number one.
-/
import Idealize.ShloMosaic.PureOps.Ideal
import Idealize.ShloMosaic.PureOps.Ideal.Laws

noncomputable section

namespace Cert.SpuBounds

open Idealize.ShloMosaic

/-- ½, as the float pattern both programs print. -/
abbrev half : EReal := Ideal.ofBits .f32 0x3F000000#32
/-- 2, as the float pattern both programs print. -/
abbrev two : EReal := Ideal.ofBits .f32 0x40000000#32
/-- The single-precision value nearest √½ (the positive zero of `spu`), as the pattern both programs print. -/
abbrev rootHalf : EReal := Ideal.ofBits .f32 0x3F3504F3#32
/-- −½ (the value of `spu` at zero), as the float pattern both programs print. -/
abbrev negHalf : EReal := Ideal.ofBits .f32 0xBF000000#32

/-- The float pattern of one is the number one. -/
theorem ofBits_one : Ideal.ofBits .f32 0x3F800000#32 = 1 := by
  simp [Ideal.ofBits, Ideal.ieee, -EReal.coe_mul]
  norm_num

/-- The logistic function at `−a`: `1 / (1 + eᵃ)`. -/
def s (a : EReal) : EReal := Ideal.div 1 (1 + Ideal.exp a)

/-- `spu a`: `a² − ½` on the non-negative side, `s(a) − 1` on the negative side. -/
def spu (a : EReal) : EReal :=
  Scalar.select (Ideal.cmp .oge a 0) (a * a - half) (s a - 1)

/-- The derivative of `spu`: `2a` on the non-negative side, `−s(a)·(1 − s(a))` on the negative side. -/
def dspu (a : EReal) : EReal :=
  Scalar.select (Ideal.cmp .oge a 0) (two * a) (-(s a) * (1 - s a))

/-- The slope of the chord of `spu` over `[l, u]`. -/
def slope (l u : EReal) : EReal := Ideal.div (spu u - spu l) (u - l)

/-- The intercept of that chord. -/
def chord (l u : EReal) : EReal := spu l - slope l u * l

/-- The midpoint of `[l, u]`. -/
def mid (l u : EReal) : EReal := (u + l) * half

/-- The intercept of the tangent of `spu` at `a`. -/
def tangent (a : EReal) : EReal := spu a - a * dspu a

/-- The slope of the upper bound: `0` for `u ≤ 0`; `u + l` for `0 ≤ l`; the chord's for `√½ ≤ u`; otherwise
    `0` where `spu u < spu l` and the chord's where not. -/
def upperSlope (l u : EReal) : EReal :=
  Scalar.select (Ideal.cmp .ole u 0) 0
    (Scalar.select (Ideal.cmp .oge l 0) (u + l)
      (Scalar.select (Ideal.cmp .oge u rootHalf) (slope l u)
        (Scalar.select (Ideal.cmp .ogt (spu l) (spu u)) 0 (slope l u))))

/-- The intercept of the upper bound, by the same four cases: `spu l`; `−u·l + ½`; the chord's; otherwise the
    larger of `spu l`, `spu u` where `spu u < spu l` and the chord's where not. -/
def upperIntercept (l u : EReal) : EReal :=
  Scalar.select (Ideal.cmp .ole u 0) (spu l)
    (Scalar.select (Ideal.cmp .oge l 0) (-u * l + half)
      (Scalar.select (Ideal.cmp .oge u rootHalf) (chord l u)
        (Scalar.select (Ideal.cmp .ogt (spu l) (spu u)) (max (spu l) (spu u)) (chord l u))))

/-- The slope of the lower bound: the chord's for `u ≤ 0`; the tangent's at the midpoint for `0 ≤ l`; the
    tangent's at the larger of the midpoint and `√½` for `√½ ≤ u`; `0` otherwise. -/
def lowerSlope (l u : EReal) : EReal :=
  Scalar.select (Ideal.cmp .ole u 0) (slope l u)
    (Scalar.select (Ideal.cmp .oge l 0) (dspu (mid l u))
      (Scalar.select (Ideal.cmp .oge u rootHalf) (dspu (max (mid l u) rootHalf)) 0))

/-- The intercept of the lower bound, by the same cases; `−½` in the last. -/
def lowerIntercept (l u : EReal) : EReal :=
  Scalar.select (Ideal.cmp .ole u 0) (chord l u)
    (Scalar.select (Ideal.cmp .oge l 0) (tangent (mid l u))
      (Scalar.select (Ideal.cmp .oge u rootHalf) (tangent (max (mid l u) rootHalf)) negHalf))

/-- The new lower bound `w_l·l + b_l`. -/
def newLower (l u : EReal) : EReal := lowerSlope l u * l + lowerIntercept l u

/-- The new upper bound `w_u·u + b_u`. -/
def newUpper (l u : EReal) : EReal := upperSlope l u * u + upperIntercept l u

end Cert.SpuBounds

end
-- ==== Proof.KernelBlocks.lean ====
/-
  The kernel body, entry by entry.

  At a grid point the body loads one 2048 × 128 block of each of the three reshaped arguments, applies the
  operations of `SpuBounds` lane by lane, and stores one block of each of the three results.  Every operation of the body
  is lane by lane, so the stored block read at a position `j` is a scalar expression of the loaded blocks at `j`:

    the first stored block at `j` is `spu (x j)`, the second `newLower (l j) (u j)`, the third `newUpper (l j) (u j)`.

  The body writes the negation as `0 − a` and names the logistic function; `0 − a = −a` and `−(−a) = a` for every extended
  real, so the logistic function at `0 − a` is `s a = 1 / (1 + eᵃ)`.  No entry needs to be finite.
-/
import proofs.«180396_j39376260169760_1_alg».proof.Proof.Gen.KernelIdeal.Frame
import proofs.«180396_j39376260169760_1_alg».proof.Proof.SpuBounds
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Cert.SpuBounds

/-- The rectangle the body loads and stores through starts at the origin. -/
theorem origin : (![0, 0] : Fin 2 → Nat) = fun _ => 0 := funext fun a => by fin_cases a <;> rfl

/-- The first stored block, at a position, is `spu` of the first loaded block there. -/
theorem out3_apply (x0 x1 x2 : Vec Ideal S2048x128 .f32) (j : S2048x128.Idx) :
    out0_3 (F := Ideal) x0 x1 x2 j = spu (x0 j) := by
  unfold out0_3
  rw [View.canon_unit_zero origin]
  simp only [View.ld_unit_zero (S := S2048x128) origin]
  simp only [k0_pay1, k0_pay29, k0_pay30, k0_pay31, k0_pay4, shapeCast_self,
    select, cmpf, subf, mulf, logistic, broadcast,
    Ideal.ofBits_def, Ideal.cmpf_def, Ideal.subf_def, Ideal.mulf_def, Ideal.logistic_def, Ideal.logistic,
    Ideal.ofBits_zero_f32, ofBits_one, zero_sub, neg_neg, spu, s, half]
  <;> rfl

/-- The second stored block, at a position, is the new lower bound of the second and third loaded blocks there. -/
theorem out4_apply (x0 x1 x2 : Vec Ideal S2048x128 .f32) (j : S2048x128.Idx) :
    out0_4 (F := Ideal) x0 x1 x2 j = newLower (x1 j) (x2 j) := by
  unfold out0_4
  rw [View.canon_unit_zero origin]
  simp only [View.ld_unit_zero (S := S2048x128) origin]
  simp only [k0_pay2, k0_pay5, k0_pay6, k0_pay7, k0_pay8, k0_pay9, k0_pay10, k0_pay11, k0_pay12, k0_pay13, k0_pay14,
    k0_pay15, k0_pay16, k0_pay17, k0_pay18, k0_pay19, k0_pay20, k0_pay22, k0_pay23, k0_pay24, k0_pay27, k0_pay28,
    shapeCast_self, select, cmpf, subf, mulf, addf, divf, maximumf, logistic, broadcast,
    Ideal.ofBits_def, Ideal.cmpf_def, Ideal.subf_def, Ideal.mulf_def, Ideal.addf_def, Ideal.divf_def, Ideal.maximumf_def,
    Ideal.logistic_def, Ideal.logistic, Ideal.ofBits_zero_f32, ofBits_one, zero_sub, neg_neg,
    newLower, lowerSlope, lowerIntercept, Cert.SpuBounds.slope, Cert.SpuBounds.chord, Cert.SpuBounds.mid, Cert.SpuBounds.tangent, spu, dspu, Cert.SpuBounds.s, half, two, rootHalf, negHalf]
  <;> rfl

/-- The third stored block, at a position, is the new upper bound of the second and third loaded blocks there. -/
theorem out5_apply (x0 x1 x2 : Vec Ideal S2048x128 .f32) (j : S2048x128.Idx) :
    out0_5 (F := Ideal) x0 x1 x2 j = newUpper (x1 j) (x2 j) := by
  unfold out0_5
  rw [View.canon_unit_zero origin]
  simp only [View.ld_unit_zero (S := S2048x128) origin]
  simp only [k0_pay3, k0_pay5, k0_pay6, k0_pay7, k0_pay8, k0_pay9, k0_pay10, k0_pay21, k0_pay22, k0_pay23, k0_pay24,
    k0_pay25, k0_pay26,
    shapeCast_self, select, cmpf, subf, mulf, addf, divf, maximumf, logistic, broadcast,
    Ideal.ofBits_def, Ideal.cmpf_def, Ideal.subf_def, Ideal.mulf_def, Ideal.addf_def, Ideal.divf_def, Ideal.maximumf_def,
    Ideal.logistic_def, Ideal.logistic, Ideal.ofBits_zero_f32, ofBits_one, zero_sub, neg_neg,
    newUpper, upperSlope, upperIntercept, Cert.SpuBounds.slope, Cert.SpuBounds.chord, spu, Cert.SpuBounds.s, half, rootHalf]
  <;> rfl

end Cert.KernelIdeal.Blocks

end
-- ==== Proof.KernelArrays.lean ====
/-
  From the blocks to the arrays.

  The region runs the body at the 64 points of its grid.  At point `t` each of the six windows is on block row `t`, block
  column 0 of its 131072 × 128 array: rows `2048·t … 2048·t + 2047`, all 128 columns.  So the block a result window writes
  back at `t` is, position by position, the body's function of the entries of the (reshaped) argument arrays at the SAME
  row and column; the 64 blocks tile each result array (row `r` is in the block of point `r / 2048`), and after the last
  write-back each result array is that function of the reshaped arguments at every position.
-/
import proofs.«180396_j39376260169760_1_alg».proof.Proof.KernelBlocks

noncomputable section

namespace Cert.KernelIdeal.Arrays

open Cert.KernelIdeal Cert.KernelIdeal.Gen Cert.KernelIdeal.Blocks Idealize.ShloMosaic Idealize.ShloMosaic.TcCoe Idealize.SL.Sem
open Idealize.ShloMosaic.Pipeline (Dat)
open Cert.SpuBounds

variable (m : (ℓ : Loc nD τ sig) → Buf (Elt Ideal) ℓ)

/-- At grid point `t` every window is on block row `t`, block column 0 (the printed index maps, decided over the grid). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-! ## The first result array of the region -/

/-- What grid point `t` writes back to the first result array is block `t` of `spu` of the reshaped point array: the block the body stored is, position
    by position, the function of the loaded blocks (`out3_apply`), and the loaded blocks sit at the same rows and columns
    of their arrays as the stored block does of its own. -/
theorem flushed3_eq (c : Dev nD) (t : Fin cfg0.N) :
    (dats m 0 c).flushed 3 t = ((cfg0.win 3).blk t).view.read (Elt Ideal) (fun i => spu (V m c main_v0 i)) := by
  show (cfg0.win 3).cut (grid0.coords t) ((dats m 0 c).after 3 t) = _
  rw [after0_3]
  obtain ⟨⟨a00, a01⟩, ⟨a10, a11⟩, ⟨a20, a21⟩, ⟨a30, a31⟩, ⟨a40, a41⟩, ⟨a50, a51⟩⟩ := block_index t
  funext j
  show out0_3 (iblk m c 0 t) (iblk m c 1 t) (iblk m c 2 t) j = _
  rw [out3_apply]
  show spu (V m c main_v0 (((cfg0.win 0).blk t).view.emb j)) = spu (V m c main_v0 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 128 + 1 * (j 1).val = win0_3.index t (1 : Fin 2) * 128 + 1 * (j 1).val; omega
  rw [h0]

/-- A position of the array lies in point `t`'s block iff each coordinate lies in the block's range on its axis. -/
theorem mem_blk3 (t : Fin cfg0.N) (i : S131072x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v3_0).slice (win0_3.rect t)).set ↔ _
  rw [View.set_slice_whole, Rect.mem_set_unit]
  exact Iff.rfl

/-- The 64 blocks tile the array: row `r` lies in the block of point `r / 2048`, and every point writes back. -/
theorem cover3 (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 64 := N_0
  obtain ⟨t, ht⟩ : ∃ t : Fin cfg0.N, t.val = (i 0).val / 2048 := ⟨⟨(i 0).val / 2048, by rw [hN]; omega⟩, rfl⟩
  obtain ⟨⟨a00, a01⟩, ⟨a10, a11⟩, ⟨a20, a21⟩, ⟨a30, a31⟩, ⟨a40, a41⟩, ⟨a50, a51⟩⟩ := block_index t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- After the last write-back the first result array holds `spu` of the reshaped point array, position by position. -/
theorem final3 (c : Dev nD) : (dats m 0 c).arrAt 3 cfg0.N = (fun i => spu (V m c main_v0 i)) :=
  (dats m 0 c).arrAt_eq_of_cover 3 _ (fun t _ => flushed3_eq m c t) cover3

/-! ## The second result array of the region -/

/-- What grid point `t` writes back to the second result array is block `t` of the new lower bound of the reshaped bound arrays: the block the body stored is, position
    by position, the function of the loaded blocks (`out4_apply`), and the loaded blocks sit at the same rows and columns
    of their arrays as the stored block does of its own. -/
theorem flushed4_eq (c : Dev nD) (t : Fin cfg0.N) :
    (dats m 0 c).flushed 4 t = ((cfg0.win 4).blk t).view.read (Elt Ideal) (fun i => newLower (V m c main_v1 i) (V m c main_v2 i)) := by
  show (cfg0.win 4).cut (grid0.coords t) ((dats m 0 c).after 4 t) = _
  rw [after0_4]
  obtain ⟨⟨a00, a01⟩, ⟨a10, a11⟩, ⟨a20, a21⟩, ⟨a30, a31⟩, ⟨a40, a41⟩, ⟨a50, a51⟩⟩ := block_index t
  funext j
  show out0_4 (iblk m c 0 t) (iblk m c 1 t) (iblk m c 2 t) j = _
  rw [out4_apply]
  show newLower (V m c main_v1 (((cfg0.win 1).blk t).view.emb j)) (V m c main_v2 (((cfg0.win 2).blk t).view.emb j)) = newLower (V m c main_v1 (((cfg0.win 4).blk t).view.emb j)) (V m c main_v2 (((cfg0.win 4).blk t).view.emb j))
  have h1 : ((cfg0.win 1).blk t).view.emb j = ((cfg0.win 4).blk t).view.emb j := by
    funext a; apply Fin.ext
    match a with
    | ⟨0, _⟩ => show win0_1.index t (0 : Fin 2) * 2048 + 1 * (j 0).val = win0_4.index t (0 : Fin 2) * 2048 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 2048 + 1 * (j 0).val = win0_4.index t (0 : Fin 2) * 2048 + 1 * (j 0).val; omega
    | ⟨1, _⟩ => show win0_2.index t (1 : Fin 2) * 128 + 1 * (j 1).val = win0_4.index t (1 : Fin 2) * 128 + 1 * (j 1).val; omega
  rw [h1, h2]

/-- A position of the array lies in point `t`'s block iff each coordinate lies in the block's range on its axis. -/
theorem mem_blk4 (t : Fin cfg0.N) (i : S131072x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v3_1).slice (win0_4.rect t)).set ↔ _
  rw [View.set_slice_whole, Rect.mem_set_unit]
  exact Iff.rfl

/-- The 64 blocks tile the array: row `r` lies in the block of point `r / 2048`, and every point writes back. -/
theorem cover4 (i : S131072x128.Idx) :
    ∃ t : Fin cfg0.N, (cfg0.win 4).flush t = true ∧ i ∈ ((cfg0.win 4).blk t).view.set := by
  have hi0 : (i 0).val < 131072 := (i 0).isLt
  have hi1 : (i 1).val < 128 := (i 1).isLt
  have hN : cfg0.N = 64 := N_0
  obtain ⟨t, ht⟩ : ∃ t : Fin cfg0.N, t.val = (i 0).val / 2048 := ⟨⟨(i 0).val / 2048, by rw [hN]; omega⟩, rfl⟩
  obtain ⟨⟨a00, a01⟩, ⟨a10, a11⟩, ⟨a20, a21⟩, ⟨a30, a31⟩, ⟨a40, a41⟩, ⟨a50, a51⟩⟩ := block_index t
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 128 ≤ (i 1).val ∧ (i 1).val < win0_4.index t (1 : Fin 2) * 128 + 128; omega

/-- After the last write-back the second result array holds the new lower bound of the reshaped bound arrays, position by position. -/
theorem final4 (c : Dev nD) : (dats m 0 c).arrAt 4 cfg0.N = (fun i => newLower (V m c main_v1 i) (V m c main_v2 i)) :=
  (dats m 0 c).arrAt_eq_of_cover 4 _ (fun t _ => flushed4_eq m c t) cover4

/-! ## The third result array of the region -/

/-- What grid point `t` writes back to the third result array is block `t` of the new upper bound of the reshaped bound arrays: the block the body stored is, position
    by position, the function of the loaded blocks (`out5_apply`), and the loaded blocks sit at the same rows and columns
    of their arrays as the stored block does of its own. -/
theorem flushed5_eq (c : Dev nD) (t : Fin cfg0.N) :
    (dats m 0 c).flushed 5 t = ((cfg0.win 5).blk t).view.read (Elt Ideal) (fun i => newUpper (V m c main_v1 i) (V m c main_v2 i)) := by
  show (cfg0.win 5).cut (grid0.coords t) ((dats m 0 c).after 5 t) = _
  rw [after0_5]
  obtain ⟨⟨a00, a01⟩, ⟨a10, a11⟩, ⟨a20, a21⟩, ⟨a30, a31⟩, ⟨a40, a41⟩, ⟨a50, a51⟩⟩ := block_index t
  funext j
  show out0_5 (iblk m c 0 t) (iblk m c 1 t) (iblk m c 2 t) j = _
  rw [out5_apply]
  show newUpper (V m c main_v1 (((cfg0.win 1).blk t).view.emb j)) (V m c main_v2 (((cfg0.win 2).blk t).view.emb j)) = newUpper (V m c main_v1 (((cfg0.win 5).blk t).view.emb j)) (V m c main_v2 (((cfg0.win 5).blk t).view.emb j))
  have h1 : ((cfg0.win 1).blk t).view.emb j = ((cfg0.win 5).blk t).view.emb j := by
    funext a; apply Fin.ext
    match a with
    | ⟨0, _⟩ => show win0_1.index t (0 : Fin 2) * 2048 + 1 * (j 0).val = win0_5.index t (0 : Fin 2) * 2048 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb j = ((cfg0.win 5).blk t).view.emb j := by
    funext a; apply Fin.ext
    match a with
    | ⟨0, _⟩ => show win0_2.index t (0 : Fin 2) * 2048 + 1 * (j 0).val = win0_5.index t (0 : Fin 2) * 2048 + 1 * (j 0).val; omega
    | ⟨1, _⟩ => show win0_2.index t (1 : Fin 2) * 128 + 1 * (j 1).val = win0_5.index t (1 : Fin 2) * 128 + 1 * (j 1).val; omega
  rw [h1, h2]

/-- A position of the array lies in point `t`'s block iff each coordinate lies in the block's range on its axis. -/
theorem mem_blk5 (t : Fin cfg0.N) (i : S131072x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v3_2).slice (win0_5.rect t)).set ↔ _
  rw [View.set_slice_whole, Rect.mem_set_unit]
  exact Iff.rfl

/-- The 64 blocks tile the array: row `r` lies in the block of point `r / 2048`, and every point writes back. -/
theorem cover5 (i : S131072x128.Idx) :
    ∃ t : Fin cfg0.N, (cfg0.win 5).flush t = true ∧ i ∈ ((cfg0.win 5).blk t).view.set := by
  have hi0 : (i 0).val < 131072 := (i 0).isLt
  have hi1 : (i 1).val < 128 := (i 1).isLt
  have hN : cfg0.N = 64 := N_0
  obtain ⟨t, ht⟩ : ∃ t : Fin cfg0.N, t.val = (i 0).val / 2048 := ⟨⟨(i 0).val / 2048, by rw [hN]; omega⟩, rfl⟩
  obtain ⟨⟨a00, a01⟩, ⟨a10, a11⟩, ⟨a20, a21⟩, ⟨a30, a31⟩, ⟨a40, a41⟩, ⟨a50, a51⟩⟩ := block_index t
  refine ⟨t, flush0_5 t, ?_⟩
  rw [mem_blk5]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 128 ≤ (i 1).val ∧ (i 1).val < win0_5.index t (1 : Fin 2) * 128 + 128; omega

/-- After the last write-back the third result array holds the new upper bound of the reshaped bound arrays, position by position. -/
theorem final5 (c : Dev nD) : (dats m 0 c).arrAt 5 cfg0.N = (fun i => newUpper (V m c main_v1 i) (V m c main_v2 i)) :=
  (dats m 0 c).arrAt_eq_of_cover 5 _ (fun t _ => flushed5_eq m c t) cover5

end Cert.KernelIdeal.Arrays

end
-- ==== Proof.KernelWhole.lean ====
/-
  The kernel program as a whole.

  Before the region the program reshapes each argument from 16777216 entries to 131072 × 128 (row-major: entry `k` goes
  to row `k / 128`, column `k % 128`); after it, it flattens each result array back the same way.  The region leaves
  in each result array a function applied position by position to the reshaped arguments (`KernelArrays`).  Flattening a
  position-by-position function of reshaped arrays is the same function of the arrays themselves, since flattening undoes the
  reshape: so the three results of the program are, entry by entry, `spu x`, `newLower l u`, `newUpper l u`.
-/
import proofs.«180396_j39376260169760_1_alg».proof.Proof.KernelArrays
import Idealize.ShloMosaic.Lib.StableHlo.Run

noncomputable section

namespace Cert.KernelIdeal.Whole

open Cert.KernelIdeal Cert.KernelIdeal.Gen Cert.KernelIdeal.Arrays Idealize.ShloMosaic Idealize.ShloMosaic.TcCoe Idealize.SL.Sem
open Idealize.ShloMosaic.StableHlo
open Cert.SpuBounds

/-- A reshape of a function applied position by position is the function applied to the reshaped array. -/
theorem shapeCast_map {s t : Shape} {α β : Type} (f : α → β) (v : s.Idx → α) (h : s.ShapeCasts t) :
    shapeCast t (fun i => f (v i)) h = fun k => f (shapeCast t v h k) := rfl

/-- The same for a function of two arrays. -/
theorem shapeCast_map₂ {s t : Shape} {α β γ : Type} (f : α → β → γ) (v : s.Idx → α) (w : s.Idx → β) (h : s.ShapeCasts t) :
    shapeCast t (fun i => f (v i) (w i)) h = fun k => f (shapeCast t v h k) (shapeCast t w h k) := rfl

variable (m : (ℓ : Loc nD τ sig) → Buf (Elt Ideal) ℓ) (ρ : Dev nD → PrngReg)

/-- The region finds the first reshaped array holding the point array, reshaped. -/
theorem entry_v0 (c : Dev nD) : (V m c main_v0 : S131072x128.Idx → EReal)
    = shapeCast S131072x128 (m ((c : Thread nD τ).loc main_arg0)) shapeCasts_S16777216_S131072x128 := by
  show StableHlo.after hostOps0 (fun b => m (c, b)) (Proc.devRef .tc main_v0) = _
  after_results
  rfl

/-- The region finds the second reshaped array holding the lower bounds, reshaped. -/
theorem entry_v1 (c : Dev nD) : (V m c main_v1 : S131072x128.Idx → EReal)
    = shapeCast S131072x128 (m ((c : Thread nD τ).loc main_arg1)) shapeCasts_S16777216_S131072x128 := by
  show StableHlo.after hostOps0 (fun b => m (c, b)) (Proc.devRef .tc main_v1) = _
  after_results
  rfl

/-- The region finds the third reshaped array holding the upper bounds, reshaped. -/
theorem entry_v2 (c : Dev nD) : (V m c main_v2 : S131072x128.Idx → EReal)
    = shapeCast S131072x128 (m ((c : Thread nD τ).loc main_arg2)) shapeCasts_S16777216_S131072x128 := by
  show StableHlo.after hostOps0 (fun b => m (c, b)) (Proc.devRef .tc main_v2) = _
  after_results
  rfl

/-- The first result of the program: the first result array of the region flattened back to one axis.  Flattening a
    function applied position by position to reshaped arrays gives the function applied to the arrays themselves. -/
theorem tail_main_v4 (c : Dev nD) :
    Pipeline.afterTail₀ cfgs (dats m) 0 (V0 m) [hostOps1] c main_v4 = (fun k => spu (m ((c : Thread nD τ).loc main_arg0) k)) := by
  unfold Pipeline.afterTail₀
  show StableHlo.after hostOps1 _ (Proc.devRef .tc main_v4) = _
  after_results
  have e := (Pipeline.withArrays_arr spec0 launch0.win.arr_inj c (V0 m c) (fun w => (dats m 0 c).arrAt w cfg0.N) 3).trans (final3 m c)
  show shapeCast S16777216 (Pipeline.withArrays spec0 c (V0 m c) (fun w => (dats m 0 c).arrAt w cfg0.N)
      (Proc.devRef .tc (Pipeline.arrRef spec0 3))) shapeCasts_S131072x128_S16777216 = _
  rw [e, entry_v0]
  refine (shapeCast_map spu (shapeCast S131072x128 (m ((c : Thread nD τ).loc main_arg0)) shapeCasts_S16777216_S131072x128)
    shapeCasts_S131072x128_S16777216).trans ?_
  rw [shapeCast_shapeCast]
  rfl

/-- The second result of the program: the second result array of the region flattened back to one axis.  Flattening a
    function applied position by position to reshaped arrays gives the function applied to the arrays themselves. -/
theorem tail_main_v5 (c : Dev nD) :
    Pipeline.afterTail₀ cfgs (dats m) 0 (V0 m) [hostOps1] c main_v5 = (fun k => newLower (m ((c : Thread nD τ).loc main_arg1) k) (m ((c : Thread nD τ).loc main_arg2) k)) := by
  unfold Pipeline.afterTail₀
  show StableHlo.after hostOps1 _ (Proc.devRef .tc main_v5) = _
  after_results
  have e := (Pipeline.withArrays_arr spec0 launch0.win.arr_inj c (V0 m c) (fun w => (dats m 0 c).arrAt w cfg0.N) 4).trans (final4 m c)
  show shapeCast S16777216 (Pipeline.withArrays spec0 c (V0 m c) (fun w => (dats m 0 c).arrAt w cfg0.N)
      (Proc.devRef .tc (Pipeline.arrRef spec0 4))) shapeCasts_S131072x128_S16777216 = _
  rw [e, entry_v1, entry_v2]
  refine (shapeCast_map₂ newLower (shapeCast S131072x128 (m ((c : Thread nD τ).loc main_arg1)) shapeCasts_S16777216_S131072x128)
    (shapeCast S131072x128 (m ((c : Thread nD τ).loc main_arg2)) shapeCasts_S16777216_S131072x128) shapeCasts_S131072x128_S16777216).trans ?_
  rw [shapeCast_shapeCast, shapeCast_shapeCast]
  rfl

/-- The third result of the program: the third result array of the region flattened back to one axis.  Flattening a
    function applied position by position to reshaped arrays gives the function applied to the arrays themselves. -/
theorem tail_main_v6 (c : Dev nD) :
    Pipeline.afterTail₀ cfgs (dats m) 0 (V0 m) [hostOps1] c main_v6 = (fun k => newUpper (m ((c : Thread nD τ).loc main_arg1) k) (m ((c : Thread nD τ).loc main_arg2) k)) := by
  unfold Pipeline.afterTail₀
  show StableHlo.after hostOps1 _ (Proc.devRef .tc main_v6) = _
  after_results
  have e := (Pipeline.withArrays_arr spec0 launch0.win.arr_inj c (V0 m c) (fun w => (dats m 0 c).arrAt w cfg0.N) 5).trans (final5 m c)
  show shapeCast S16777216 (Pipeline.withArrays spec0 c (V0 m c) (fun w => (dats m 0 c).arrAt w cfg0.N)
      (Proc.devRef .tc (Pipeline.arrRef spec0 5))) shapeCasts_S131072x128_S16777216 = _
  rw [e, entry_v1, entry_v2]
  refine (shapeCast_map₂ newUpper (shapeCast S131072x128 (m ((c : Thread nD τ).loc main_arg1)) shapeCasts_S16777216_S131072x128)
    (shapeCast S131072x128 (m ((c : Thread nD τ).loc main_arg2)) shapeCasts_S16777216_S131072x128) shapeCasts_S131072x128_S16777216).trans ?_
  rw [shapeCast_shapeCast, shapeCast_shapeCast]
  rfl

/-- The kernel program's run: every weakly fair execution terminates with its three results at `spu x`, `newLower l u`,
    `newUpper l u` entry by entry, and the arguments unchanged. -/
theorem run : θ_run (defs (F := Ideal)) (onTc (τ := τ) (main (F := Ideal))) ⟨m, fun _ => 0, ρ⟩ fun r => ∀ c : Dev nD,
      r.2.mem ((c.tc : Thread nD τ).loc main_v4) = (fun k => spu (m ((c.tc : Thread nD τ).loc main_arg0) k))
      ∧ r.2.mem ((c.tc : Thread nD τ).loc main_v5)
          = (fun k => newLower (m ((c.tc : Thread nD τ).loc main_arg1) k) (m ((c.tc : Thread nD τ).loc main_arg2) k))
      ∧ r.2.mem ((c.tc : Thread nD τ).loc main_v6)
          = (fun k => newUpper (m ((c.tc : Thread nD τ).loc main_arg1) k) (m ((c.tc : Thread nD τ).loc main_arg2) k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (tail_main_v4 m c),
      ((h c).2 main_v5 (Pipeline.mem_restRefs_of main_v5 (by decide) (by decide))).trans (tail_main_v5 m c),
      ((h c).2 main_v6 (Pipeline.mem_restRefs_of main_v6 (by decide) (by decide))).trans (tail_main_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.ReferenceEntries.lean ====
/-
  The reference program, entry by entry.

  Every operation of the reference acts on whole arrays of one shape, position by position: a comparison, a product,
  a difference, a quotient, an exponential, a negation, a maximum, a choice by a mask, or a scalar spread over the
  array.  So each of its three results, read at a position `i`, is a scalar expression of the arguments' entries at
  `i`.  Here that expression is identified with the functions of `SpuBounds`:

    result 0 at `i` is `spu (x i)`,   result 1 at `i` is `newLower (l i) (u i)`,   result 2 at `i` is `newUpper (l i) (u i)`.

  The reference spells the logistic function at `−a` as `1 / (1 + e^(−(−a)))`; `−(−a) = a` for every extended real and
  the pattern of one is the number one, which makes it `s a = 1 / (1 + eᵃ)`.  The pattern of zero is the number zero.
  No entry needs to be finite.
-/
import proofs.«180396_j39376260169760_1_alg».proof.Proof.Gen.ReferenceIdeal.Run
import proofs.«180396_j39376260169760_1_alg».proof.Proof.SpuBounds

noncomputable section

namespace Cert.ReferenceIdeal.Entries

open Cert.ReferenceIdeal Cert.ReferenceIdeal.Gen Idealize.ShloMosaic Idealize.ShloMosaic.TcCoe Idealize.SL.Sem
open Cert.SpuBounds

/-- The reference's run with each result read entry by entry: every weakly fair execution terminates with the three
    results at `spu x`, `newLower l u`, `newUpper l u` position by position, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v147) = (fun i => spu (m ((c.tc : Thread nD τ).loc main_arg0) i))
      ∧ r.2.mem ((c.tc : Thread nD τ).loc main_v149)
          = (fun i => newLower (m ((c.tc : Thread nD τ).loc main_arg1) i) (m ((c.tc : Thread nD τ).loc main_arg2) i))
      ∧ r.2.mem ((c.tc : Thread nD τ).loc main_v151)
          = (fun i => newUpper (m ((c.tc : Thread nD τ).loc main_arg1) i) (m ((c.tc : Thread nD τ).loc main_arg2) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ⟨(h c).1.trans ?_, (h c).2.1.trans ?_, (h c).2.2.1.trans ?_,
    (h c).2.2.2⟩) (Cert.ReferenceIdeal.Value.run (F := Ideal) m ρ)
  · funext i
    simp only [select, cmpf, subf, mulf, addf, Host.divf, Host.exp, Host.negf, broadcastInDim, constant,
      Ideal.ofBits_def, Ideal.cmpf_def, Ideal.subf_def, Ideal.mulf_def, Ideal.addf_def, Ideal.hostDivf_def,
      Ideal.hostUnary_exp_def, Ideal.hostNegf_def, Ideal.negf_def, Ideal.ofBits_zero_f32, ofBits_one, neg_neg,
      spu, s, half]
    <;> rfl
  · funext i
    unfold Cert.ReferenceIdeal.Value.res_main_v149
    simp only [select, cmpf, subf, mulf, addf, maximumf, Host.divf, Host.exp, Host.negf, broadcastInDim, constant, id_eq,
      Ideal.ofBits_def, Ideal.cmpf_def, Ideal.subf_def, Ideal.mulf_def, Ideal.addf_def, Ideal.maximumf_def,
      Ideal.hostDivf_def, Ideal.hostUnary_exp_def, Ideal.hostNegf_def, Ideal.negf_def, Ideal.ofBits_zero_f32, ofBits_one,
      neg_neg, newLower, lowerSlope, lowerIntercept, Cert.SpuBounds.slope, Cert.SpuBounds.chord, Cert.SpuBounds.mid, Cert.SpuBounds.tangent, spu, dspu, Cert.SpuBounds.s, half, two, rootHalf, negHalf]
    <;> rfl
  · funext i
    unfold Cert.ReferenceIdeal.Value.res_main_v151
    simp only [select, cmpf, subf, mulf, addf, maximumf, Host.divf, Host.exp, Host.negf, broadcastInDim, constant, id_eq,
      Ideal.ofBits_def, Ideal.cmpf_def, Ideal.subf_def, Ideal.mulf_def, Ideal.addf_def, Ideal.maximumf_def,
      Ideal.hostDivf_def, Ideal.hostUnary_exp_def, Ideal.hostNegf_def, Ideal.negf_def, Ideal.ofBits_zero_f32, ofBits_one,
      neg_neg, newUpper, upperSlope, upperIntercept, Cert.SpuBounds.slope, Cert.SpuBounds.chord, spu, Cert.SpuBounds.s, half, rootHalf]
    <;> rfl

end Cert.ReferenceIdeal.Entries

end
-- ==== Proof.lean ====
/-
  A kernel that bounds the piecewise function `spu` over an interval, against its array-level reference.

  From three arrays of 16777216 numbers — a point `x` and interval bounds `l`, `u` — both programs compute, entry by entry,
  `spu x` and the values `w_l·l + b_l`, `w_u·u + b_u` of a lower and an upper linear bound of `spu` over `[l, u]`, chosen among
  the chord of `spu` and its tangents by the signs of `l` and `u` and by `u` against `√½` (`Proof/SpuBounds.lean` has the
  functions).  The reference applies the operations to the whole arrays.  The kernel reshapes each argument to
  131072 × 128, walks it in 64 blocks of 2048 rows applying the same operations lane by lane, and flattens the results.

  Why the results agree on the extended reals: every operation is position by position, so each side's result at a
  position is a scalar expression of the arguments there, and the two expressions are the same functions
  (`Proof/KernelBlocks.lean`, `Proof/ReferenceEntries.lean`) — up to `0 − a = −a`, `−(−a) = a`, and the logistic function
  being `1 / (1 + e^(−·))`, all of which hold for every extended real; the 64 blocks tile each result array
  (`Proof/KernelArrays.lean`); and flattening undoes the reshape (`Proof/KernelWhole.lean`).  Finiteness of the inputs is
  never used.  The idealized kernel is the kernel's own text read on the extended reals, so nothing is owed for it.
-/
import proofs.«180396_j39376260169760_1_alg».proof.Defs
import proofs.«180396_j39376260169760_1_alg».proof.Proof.Gen.Kernel
import proofs.«180396_j39376260169760_1_alg».proof.Proof.Gen.Kernel.Skeleton
import proofs.«180396_j39376260169760_1_alg».proof.Proof.Gen.Kernel.Launch
import proofs.«180396_j39376260169760_1_alg».proof.Proof.Gen.Kernel.Points
import proofs.«180396_j39376260169760_1_alg».proof.Proof.Gen.Kernel.Frame
import proofs.«180396_j39376260169760_1_alg».proof.Proof.Gen.KernelIdeal
import proofs.«180396_j39376260169760_1_alg».proof.Proof.Gen.KernelIdeal.Skeleton
import proofs.«180396_j39376260169760_1_alg».proof.Proof.Gen.KernelIdeal.Launch
import proofs.«180396_j39376260169760_1_alg».proof.Proof.Gen.KernelIdeal.Points
import proofs.«180396_j39376260169760_1_alg».proof.Proof.Gen.KernelIdeal.Frame
import proofs.«180396_j39376260169760_1_alg».proof.Proof.Gen.ReferenceIdeal
import proofs.«180396_j39376260169760_1_alg».proof.Proof.Gen.ReferenceIdeal.Run
import proofs.«180396_j39376260169760_1_alg».proof.Proof.Gen.Pre_finite_inputs
import proofs.«180396_j39376260169760_1_alg».proof.Proof.KernelWhole
import proofs.«180396_j39376260169760_1_alg».proof.Proof.ReferenceEntries
import Idealize.ShloMosaic.Adequacy
import Idealize.ShloMosaic.Init

noncomputable section

namespace Cert.Proof

open Idealize.ShloMosaic Idealize.SL.Sem Cert.SpuBounds

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- No operation of the kernel was rewritten to read it on the extended reals. -/
theorem preserves : Cert.preserves_Kernel_KernelIdeal := trivial

/-- From memories agreeing on the three arguments both programs end with `spu x`, `newLower l u`, `newUpper l u` entry by
    entry in their three results, and with the arguments unchanged. -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Entries.run m' ρ')
  · rw [(hagree c).1]; rfl
  · rw [(hagree c).2.1, (hagree c).2.2]; rfl
  · rw [(hagree c).2.1, (hagree c).2.2]; rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
